-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S1024x1024 : Shape := ⟨2, ![1024, 1024]⟩
abbrev S1024x2048 : Shape := ⟨2, ![1024, 2048]⟩
abbrev S2048x4096 : Shape := ⟨2, ![2048, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  main_v18

def fn {F : FTy → Type} [FloatOps F] (main_arg0 : FVec F S4x4096x4096 .f32) (main_arg1 : FVec F S1024x1024 .f32) (main_arg2 : FVec F S1024x2048 .f32) (main_arg3 : FVec F S2048x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_v13 main_v16
-- ==== Kernel.lean ====
abbrev S4x4096x4096 : Shape := ⟨3, ![4, 4096, 4096]⟩
abbrev S1024x1024 : Shape := ⟨2, ![1024, 1024]⟩
abbrev S1024x2048 : Shape := ⟨2, ![1024, 2048]⟩
abbrev S2048x4096 : Shape := ⟨2, ![2048, 4096]⟩
abbrev S2048x1024 : Shape := ⟨2, ![2048, 1024]⟩
abbrev S4096x2048 : Shape := ⟨2, ![4096, 2048]⟩
abbrev S16384x4096 : Shape := ⟨2, ![16384, 4096]⟩
abbrev S128x4096 : Shape := ⟨2, ![128, 4096]⟩
abbrev S128x1024 : Shape := ⟨2, ![128, 1024]⟩
abbrev S128x2048 : Shape := ⟨2, ![128, 2048]⟩

abbrev nBuf : Space → Nat
  | .hbm => 13
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S1024x1024, .f32⟩
  | .hbm, ⟨2, _⟩ => ⟨S1024x2048, .f32⟩
  | .hbm, ⟨3, _⟩ => ⟨S2048x4096, .f32⟩
  | .hbm, ⟨4, _⟩ => ⟨S1024x1024, .f32⟩
  | .hbm, ⟨5, _⟩ => ⟨S1024x1024, .bf16⟩
  | .hbm, ⟨6, _⟩ => ⟨S2048x1024, .f32⟩
  | .hbm, ⟨7, _⟩ => ⟨S2048x1024, .bf16⟩
  | .hbm, ⟨8, _⟩ => ⟨S4096x2048, .f32⟩
  | .hbm, ⟨9, _⟩ => ⟨S4096x2048, .bf16⟩
  | .hbm, ⟨10, _⟩ => ⟨S16384x4096, .f32⟩
  | .hbm, ⟨11, _⟩ => ⟨S16384x4096, .f32⟩
  | .hbm, ⟨12, _⟩ => ⟨S4x4096x4096, .f32⟩
  | .local _ .vmem, ⟨0, _⟩ => ⟨S128x4096, .f32⟩
  | .local _ .vmem, ⟨1, _⟩ => ⟨S128x4096, .f32⟩
  | .local _ .vmem, ⟨2, _⟩ => ⟨S1024x1024, .bf16⟩
  | .local _ .vmem, ⟨3, _⟩ => ⟨S2048x1024, .bf16⟩
  | .local _ .vmem, ⟨4, _⟩ => ⟨S4096x2048, .bf16⟩
  | .local _ .vmem, ⟨5, _⟩ => ⟨S128x4096, .f32⟩
  | .local _ .vmem, ⟨6, _⟩ => ⟨S128x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1024x1024_S1024x1024_1_0 : S1024x1024.Transposes [1, 0] S1024x1024
  bitsLt_bf16_f32 : FTy.bits .bf16 < FTy.bits .f32
  transposes_S1024x2048_S2048x1024_1_0 : S1024x2048.Transposes [1, 0] S2048x1024
  transposes_S2048x4096_S4096x2048_1_0 : S2048x4096.Transposes [1, 0] S4096x2048
  shapeCasts_S4x4096x4096_S16384x4096 : S4x4096x4096.ShapeCasts S16384x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  slices_S128x4096_o0_0_S128x1024 : S128x4096.Slices ![0, 0] S128x1024
  slices_S128x4096_o0_0_S128x2048 : S128x4096.Slices ![0, 0] S128x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S128x4096_S128x1024_0_0 : ∀ a, (![0, 0] : Fin 2 → Nat) a + S128x1024.size a ≤ S128x4096.size a
  h_S128x1024 : 0 < S128x1024.numel
  inb_S128x4096_S128x1024_0_1024 : ∀ a, (![0, 1024] : Fin 2 → Nat) a + S128x1024.size a ≤ S128x4096.size a
  inb_S128x4096_S128x2048_0_2048 : ∀ a, (![0, 2048] : Fin 2 → Nat) a + S128x2048.size a ≤ S128x4096.size a
  h_S128x2048 : 0 < S128x2048.numel
  shapeCasts_S16384x4096_S4x4096x4096 : S16384x4096.ShapeCasts S4x4096x4096
  dot_S128x1024_S1024x1024_S128x1024_1_0_0_1_n_n_wf : DotDims.WF S128x1024 S1024x1024 S128x1024 [1] [0] [0] [1] [] []
  dot_S128x2048_S2048x1024_S128x1024_1_0_0_1_n_n_wf : DotDims.WF S128x2048 S2048x1024 S128x1024 [1] [0] [0] [1] [] []
  dot_S128x4096_S4096x2048_S128x2048_1_0_0_1_n_n_wf : DotDims.WF S128x4096 S4096x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S16384x4096.size a
  hwx0_4 : ∀ i : grid0.Coords, EltTy.bits .f32 = 32 ∨ (Rect.block (s := S16384x4096) S128x4096.size (cc0_transform_4 i) (hinb0_4 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf

abbrev win0_0 : Pipeline.Window sig grid0 :=
  Pipeline.Window.ofSpec (Memref.whole main_v6) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S1024x1024 : Shape := ⟨2, ![1024, 1024]⟩
abbrev S1024x2048 : Shape := ⟨2, ![1024, 2048]⟩
abbrev S2048x4096 : Shape := ⟨2, ![2048, 4096]⟩
abbrev S4x4096x1024 : Shape := ⟨3, ![4, 4096, 1024]⟩
abbrev S4x4096x2048 : Shape := ⟨3, ![4, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1024x1024, .f32⟩
  | .hbm, ⟨2, _⟩ => ⟨S1024x2048, .f32⟩
  | .hbm, ⟨3, _⟩ => ⟨S2048x4096, .f32⟩
  | .hbm, ⟨4, _⟩ => ⟨S4x4096x1024, .f32⟩
  | .hbm, ⟨5, _⟩ => ⟨S4x4096x1024, .f32⟩
  | .hbm, ⟨6, _⟩ => ⟨S4x4096x2048, .f32⟩
  | .hbm, ⟨7, _⟩ => ⟨S4x4096x1024, .f32⟩
  | .hbm, ⟨8, _⟩ => ⟨S4x4096x2048, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  slices_S4x4096x4096_S4x4096x1024_0_0_0 : S4x4096x4096.Slices ![0, 0, 0] S4x4096x1024
  slices_S4x4096x4096_S4x4096x2048_0_0_0 : S4x4096x4096.Slices ![0, 0, 0] S4x4096x2048
  concatenates_S4x4096x1024_S4x4096x1024_S4x4096x2048_S4x4096x4096_d2 : Shape.Concatenates [S4x4096x1024, S4x4096x1024, S4x4096x2048] S4x4096x4096 2
  dot_S4x4096x1024_S1024x1024_S4x4096x1024_2_1_01_0_n_n_wf : DotDims.WF S4x4096x1024 S1024x1024 S4x4096x1024 [2] [1] [0, 1] [0] [] []
  dot_S4x4096x2048_S1024x2048_S4x4096x1024_2_1_01_0_n_n_wf : DotDims.WF S4x4096x2048 S1024x2048 S4x4096x1024 [2] [1] [0, 1] [0] [] []
  dot_S4x4096x4096_S2048x4096_S4x4096x2048_2_1_01_0_n_n_wf : DotDims.WF S4x4096x4096 S2048x4096 S4x4096x2048 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x2048_S1024x2048_S4x4096x1024_2_1_01_0_n_n : DotDims S4x4096x2048 S1024x2048 S4x4096x1024 where
  lhsContracting := [2]
  rhsContracting := [1]
  lhsNonContracting := [0, 1]
  rhsNonContracting := [0]
  lhsBatch := []
  rhsBatch := []
  wf := dot_S4x4096x2048_S1024x2048_S4x4096x1024_2_1_01_0_n_n_wf
def dot_S4x4096x4096_S2048x4096_S4x4096x2048_2_1_01_0_n_n : DotDims S4x4096x4096 S2048x4096 S4x4096x2048 where
  lhsContracting := [2]
  rhsContracting := [1]
  lhsNonContracting := [0, 1]
  rhsNonContracting := [0]
  lhsBatch := []
  rhsBatch := []
  wf := dot_S4x4096x4096_S2048x4096_S4x4096x2048_2_1_01_0_n_n_wf

class Facts : Prop extends Facts₀ where

variable [Facts]
-- ==== Proof.Spec.lean ====
/-
  The specification. The linear map is block triangular: output channel `o` of head `h` only sees the first
  `K_h` input channels, `K = 1024, 2048, 4096` for the three heads, and the heads' outputs (1024, 1024 and 2048
  channels) lie side by side along the last axis. So entry `(b, s, c)` of the result is

      ∑ k < K_h, x[b, s, k] · W_h[c - c_h, k]

  where `h` is the head whose channel range `[c_h, c_h + N_h)` holds `c` (`c_h = 0, 1024, 2048`).
  `result` states that over the argument arrays; `resultRows` is the same array with its two leading axes
  merged into one axis of 16384 rows, row `r` being `(r / 4096, r % 4096)`; `blockFn` is a block of 128 of those
  rows computed from the block's rows of `x` and the transposed weights.
-/
import Idealize.ShloMosaic.Lib.ValueIdx
import Idealize.ShloMosaic.PureOps.Ideal

noncomputable section

namespace Cert.Matryoshka

open Idealize.ShloMosaic Idealize.ShloMosaic.ValueIdx
open scoped BigOperators

/-- One head at one position: the first `K` channels of row `(b, s)` of `x` against row `o` of the head's weights. -/
def headAt {K N : Nat} (hK : K ≤ 4096) (x : (⟨3, ![4, 4096, 4096]⟩ : Shape).Idx → EReal)
    (W : (⟨2, ![N, K]⟩ : Shape).Idx → EReal) (b : Fin 4) (s : Fin 4096) (o : Fin N) : EReal :=
  ∑ k : Fin K, x (ix3 b s ⟨k.val, lt_of_lt_of_le k.isLt hK⟩) * W (ix2 o k)

/-- Entry `(b, s, c)`: the head whose channel range holds `c`, at `c` less the range's start. -/
def entry (x : (⟨3, ![4, 4096, 4096]⟩ : Shape).Idx → EReal) (W0 : (⟨2, ![1024, 1024]⟩ : Shape).Idx → EReal)
    (W1 : (⟨2, ![1024, 2048]⟩ : Shape).Idx → EReal) (W2 : (⟨2, ![2048, 4096]⟩ : Shape).Idx → EReal)
    (b : Fin 4) (s : Fin 4096) (c : Fin 4096) : EReal :=
  if h0 : c.val < 1024 then headAt (K := 1024) (by norm_num) x W0 b s ⟨c.val, h0⟩
  else if h1 : c.val < 2048 then headAt (K := 2048) (by norm_num) x W1 b s ⟨c.val - 1024, by omega⟩
  else headAt (K := 4096) (le_refl _) x W2 b s ⟨c.val - 2048, by have h := c.isLt; omega⟩

/-- The three heads side by side along the channel axis. -/
def result (x : (⟨3, ![4, 4096, 4096]⟩ : Shape).Idx → EReal) (W0 : (⟨2, ![1024, 1024]⟩ : Shape).Idx → EReal)
    (W1 : (⟨2, ![1024, 2048]⟩ : Shape).Idx → EReal) (W2 : (⟨2, ![2048, 4096]⟩ : Shape).Idx → EReal) :
    (⟨3, ![4, 4096, 4096]⟩ : Shape).Idx → EReal := fun i => entry x W0 W1 W2 (i 0) (i 1) (i 2)

/-- The same array with the batch and sequence axes merged: row `r` is position `(r / 4096, r % 4096)`. -/
def resultRows (x : (⟨3, ![4, 4096, 4096]⟩ : Shape).Idx → EReal) (W0 : (⟨2, ![1024, 1024]⟩ : Shape).Idx → EReal)
    (W1 : (⟨2, ![1024, 2048]⟩ : Shape).Idx → EReal) (W2 : (⟨2, ![2048, 4096]⟩ : Shape).Idx → EReal) :
    (⟨2, ![16384, 4096]⟩ : Shape).Idx → EReal := fun j =>
  entry x W0 W1 W2 ⟨(j 0).val / 4096, by have h : (j 0).val < 16384 := (j 0).isLt; omega⟩
    ⟨(j 0).val % 4096, Nat.mod_lt _ (by norm_num)⟩ (j 1)

/-- Entry `(p, c)` of a block of 128 rows of the result, from the block's 128 rows of `x` (`x0`) and the three
    weight matrices TRANSPOSED (`K` rows, `N` columns: `x1`, `x2`, `x3`): row `p` of `x0`, cut to the head's `K`
    channels, with a column of the head's transposed weights. -/
def blockAt (x0 : (⟨2, ![128, 4096]⟩ : Shape).Idx → EReal) (x1 : (⟨2, ![1024, 1024]⟩ : Shape).Idx → EReal)
    (x2 : (⟨2, ![2048, 1024]⟩ : Shape).Idx → EReal) (x3 : (⟨2, ![4096, 2048]⟩ : Shape).Idx → EReal)
    (p : Fin 128) (c : Fin 4096) : EReal :=
  if h0 : c.val < 1024 then
    ∑ k : Fin 1024, x0 (ix2 p ⟨k.val, by have := k.isLt; omega⟩) * x1 (ix2 k ⟨c.val, h0⟩)
  else if h1 : c.val < 2048 then
    ∑ k : Fin 2048, x0 (ix2 p ⟨k.val, by have := k.isLt; omega⟩) * x2 (ix2 k ⟨c.val - 1024, by omega⟩)
  else
    ∑ k : Fin 4096, x0 (ix2 p k) * x3 (ix2 k ⟨c.val - 2048, by have h := c.isLt; omega⟩)

/-- The block as an array. -/
def blockFn (x0 : (⟨2, ![128, 4096]⟩ : Shape).Idx → EReal) (x1 : (⟨2, ![1024, 1024]⟩ : Shape).Idx → EReal)
    (x2 : (⟨2, ![2048, 1024]⟩ : Shape).Idx → EReal) (x3 : (⟨2, ![4096, 2048]⟩ : Shape).Idx → EReal) :
    (⟨2, ![128, 4096]⟩ : Shape).Idx → EReal := fun y => blockAt x0 x1 x2 x3 (y 0) (y 1)

section Heads
variable (x0 : (⟨2, ![128, 4096]⟩ : Shape).Idx → EReal) (x1 : (⟨2, ![1024, 1024]⟩ : Shape).Idx → EReal)
  (x2 : (⟨2, ![2048, 1024]⟩ : Shape).Idx → EReal) (x3 : (⟨2, ![4096, 2048]⟩ : Shape).Idx → EReal)

/-- Columns 0–1023 of the block are the 1024-channel head's product. -/
theorem blockAt_head0 (p' : Fin 128) (c : Fin 4096) (p : Fin 128) (q : Fin 1024) (hp : p'.val = p.val) (hc : c.val = q.val) :
    blockAt x0 x1 x2 x3 p' c = ∑ k : Fin 1024, x0 (ix2 p ⟨k.val, by have := k.isLt; omega⟩) * x1 (ix2 k q) := by
  obtain rfl : p' = p := Fin.ext hp
  have hq := q.isLt
  unfold blockAt
  rw [dif_pos (show c.val < 1024 by omega)]
  refine Finset.sum_congr rfl fun k _ => ?_
  congr 1
  exact congrArg x1 (funext fun a => Fin.ext (by
    match a with
    | ⟨0, _⟩ => rfl
    | ⟨1, _⟩ => exact hc))

/-- Columns 1024–2047 are the 2048-channel head's product. -/
theorem blockAt_head1 (p' : Fin 128) (c : Fin 4096) (p : Fin 128) (q : Fin 1024) (hp : p'.val = p.val) (hc : c.val = 1024 + q.val) :
    blockAt x0 x1 x2 x3 p' c = ∑ k : Fin 2048, x0 (ix2 p ⟨k.val, by have := k.isLt; omega⟩) * x2 (ix2 k q) := by
  obtain rfl : p' = p := Fin.ext hp
  have hq := q.isLt
  unfold blockAt
  rw [dif_neg (show ¬c.val < 1024 by omega), dif_pos (show c.val < 2048 by omega)]
  refine Finset.sum_congr rfl fun k _ => ?_
  congr 1
  exact congrArg x2 (funext fun a => Fin.ext (by
    match a with
    | ⟨0, _⟩ => rfl
    | ⟨1, _⟩ => show c.val - 1024 = q.val; omega))

/-- Columns 2048–4095 are the full head's product. -/
theorem blockAt_head2 (p' : Fin 128) (c : Fin 4096) (p : Fin 128) (q : Fin 2048) (hp : p'.val = p.val) (hc : c.val = 2048 + q.val) :
    blockAt x0 x1 x2 x3 p' c = ∑ k : Fin 4096, x0 (ix2 p k) * x3 (ix2 k q) := by
  obtain rfl : p' = p := Fin.ext hp
  unfold blockAt
  rw [dif_neg (show ¬c.val < 1024 by omega), dif_neg (show ¬c.val < 2048 by omega)]
  refine Finset.sum_congr rfl fun k _ => ?_
  congr 1
  exact congrArg x3 (funext fun a => Fin.ext (by
    match a with
    | ⟨0, _⟩ => rfl
    | ⟨1, _⟩ => show c.val - 2048 = q.val; omega))

end Heads

/-- Block `r` of the merged rows: when `x0` holds rows `128 r … 128 r + 127` of `x` and `x1`, `x2`, `x3` the transposed
    weights, entry `(p, c)` of the block is entry `(b, s, c)` of the result at the position `(b, s)` of row
    `128 r + p`. Only the order of the two indices of each weight matrix differs. -/
theorem blockAt_eq_entry (x0 : (⟨2, ![128, 4096]⟩ : Shape).Idx → EReal) (x1 : (⟨2, ![1024, 1024]⟩ : Shape).Idx → EReal)
    (x2 : (⟨2, ![2048, 1024]⟩ : Shape).Idx → EReal) (x3 : (⟨2, ![4096, 2048]⟩ : Shape).Idx → EReal)
    (x : (⟨3, ![4, 4096, 4096]⟩ : Shape).Idx → EReal) (W0 : (⟨2, ![1024, 1024]⟩ : Shape).Idx → EReal)
    (W1 : (⟨2, ![1024, 2048]⟩ : Shape).Idx → EReal) (W2 : (⟨2, ![2048, 4096]⟩ : Shape).Idx → EReal)
    (r : Nat) (hr : r * 128 + 128 ≤ 16384)
    (hx0 : ∀ (p : Fin 128) (k : Fin 4096), x0 (ix2 p k)
      = x (ix3 ⟨(r * 128 + p.val) / 4096, by have := p.isLt; omega⟩ ⟨(r * 128 + p.val) % 4096, Nat.mod_lt _ (by norm_num)⟩ k))
    (hx1 : ∀ (k : Fin 1024) (q : Fin 1024), x1 (ix2 k q) = W0 (ix2 q k))
    (hx2 : ∀ (k : Fin 2048) (q : Fin 1024), x2 (ix2 k q) = W1 (ix2 q k))
    (hx3 : ∀ (k : Fin 4096) (q : Fin 2048), x3 (ix2 k q) = W2 (ix2 q k))
    (p : Fin 128) (c c' : Fin 4096) (b : Fin 4) (s : Fin 4096)
    (hb : b.val = (r * 128 + p.val) / 4096) (hs : s.val = (r * 128 + p.val) % 4096) (hc : c'.val = c.val) :
    blockAt x0 x1 x2 x3 p c = entry x W0 W1 W2 b s c' := by
  obtain rfl : c' = c := Fin.ext hc
  have hxb : ∀ k : Fin 4096, x0 (ix2 p k) = x (ix3 b s k) := fun k => by
    rw [hx0]
    exact congrArg x (funext fun a => Fin.ext (by
      match a with
      | ⟨0, _⟩ => exact hb.symm
      | ⟨1, _⟩ => exact hs.symm
      | ⟨2, _⟩ => rfl))
  unfold blockAt entry headAt
  by_cases h0 : c'.val < 1024
  · rw [dif_pos h0, dif_pos h0]
    exact Finset.sum_congr rfl fun k _ => by rw [hxb, hx1]
  · rw [dif_neg h0, dif_neg h0]
    by_cases h1 : c'.val < 2048
    · rw [dif_pos h1, dif_pos h1]
      exact Finset.sum_congr rfl fun k _ => by rw [hxb, hx2]
    · rw [dif_neg h1, dif_neg h1]
      exact Finset.sum_congr rfl fun k _ => by rw [hxb, hx3]

/-- Splitting the merged row axis back: row `4096 b + s`, column `c` of `resultRows` is entry `(b, s, c)`. -/
theorem resultRows_eq_result (x : (⟨3, ![4, 4096, 4096]⟩ : Shape).Idx → EReal) (W0 : (⟨2, ![1024, 1024]⟩ : Shape).Idx → EReal)
    (W1 : (⟨2, ![1024, 2048]⟩ : Shape).Idx → EReal) (W2 : (⟨2, ![2048, 4096]⟩ : Shape).Idx → EReal)
    (i : (⟨3, ![4, 4096, 4096]⟩ : Shape).Idx) (j : (⟨2, ![16384, 4096]⟩ : Shape).Idx)
    (h0 : (j 0).val = (i 0).val * 4096 + (i 1).val) (h1 : (j 1).val = (i 2).val) :
    resultRows x W0 W1 W2 j = result x W0 W1 W2 i := by
  have hi1 : (i 1).val < 4096 := (i 1).isLt
  unfold resultRows result
  congr 1
  · exact Fin.ext (by show (j 0).val / 4096 = (i 0).val; omega)
  · exact Fin.ext (by show (j 0).val % 4096 = (i 1).val; omega)
  · exact Fin.ext h1

end Cert.Matryoshka

end
-- ==== Proof.Payload.lean ====
/-
  The three products of the kernel body read entry by entry. At extended-real values the body narrows the block
  of `x` to bf16 (the identity), takes its first 1024 / 2048 / all 4096 columns, and multiplies each cut by the
  matching transposed weight matrix into a zero accumulator: entry `(p, q)` of each product is the plain sum
  over the contracted channel of row `p` times column `q`.
-/
import proofs.«125300_j59820304498925_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The narrowed block is the block: a change of float format is the identity on extended reals, and the
    shape cast is between equal shapes. -/
theorem pay1_eq (x0 : Vec Ideal S128x4096 .f32) : k0_pay1 (F := Ideal) x0 = x0 := by
  unfold k0_pay1
  rw [shapeCast_self]
  rfl

/-! ### The head over the first 1024 channels -/

theorem lhs_k0_pay2_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_k0_pay2_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_k0_pay2_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_k0_pay2_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The cut to the first 1024 channels starts at zero, so it reads the block at the same coordinates. -/
theorem slice_k0_pay2 (x : S128x4096.Idx → EReal) (j : S128x1024.Idx) (p : Fin 128) (k : Fin 1024) (h0 : (j 0).val = p.val) (h1 : (j 1).val = k.val) :
    extractStridedSlice S128x1024 ![0, 0] x slices_S128x4096_o0_0_S128x1024 j = x (ix2 p ⟨k.val, by have := k.isLt; omega⟩) :=
  extractStridedSlice_apply ![0, 0] x slices_S128x4096_o0_0_S128x1024 j (ix2 p ⟨k.val, by have := k.isLt; omega⟩) (fun a => by
    match a with
    | ⟨0, _⟩ => show p.val = 0 + (j 0).val; omega
    | ⟨1, _⟩ => show k.val = 0 + (j 1).val; omega)

/-- The left factor of term `k` of entry `(p, q)`: the block of `x` at `(p, k)`. -/
theorem lhs_k0_pay2 (x0 : Vec Ideal S128x4096 .f32) (p : Fin 128) (q : Fin 1024) (k : Fin 1024) (κ : dot_S128x1024_S1024x1024_S128x1024_1_0_0_1_n_n.contr.Idx) (hk : (κ ⟨0, by decide⟩).val = k.val) :
    extractStridedSlice S128x1024 ![0, 0] (k0_pay1 (F := Ideal) x0) slices_S128x4096_o0_0_S128x1024 (dot_S128x1024_S1024x1024_S128x1024_1_0_0_1_n_n.lhsIdx (ix2 p q) κ) = x0 (ix2 p ⟨k.val, by have := k.isLt; omega⟩) := by
  rw [pay1_eq]
  exact slice_k0_pay2 x0 _ p k (lhs_k0_pay2_0 _ _) ((lhs_k0_pay2_1 _ _).trans hk)

/-- Entry `(p, q)` of the head's product: row `p` of the block of `x`, cut to 1024 channels, against column `q`
    of the transposed weights. The accumulator is zero, so the entry is the bare sum. -/
theorem k0_pay2_apply (x0 : Vec Ideal S128x4096 .f32) (w : Vec Ideal S1024x1024 .bf16) (p : Fin 128) (q : Fin 1024) :
    k0_pay2 (F := Ideal) x0 w (ix2 p q) = ∑ k : Fin 1024, x0 (ix2 p ⟨k.val, by have := k.isLt; omega⟩) * w (ix2 k q) := by
  unfold k0_pay2
  show FloatOps.matmul dot_S128x1024_S1024x1024_S128x1024_1_0_0_1_n_n none (extractStridedSlice S128x1024 ![0, 0] (k0_pay1 (F := Ideal) x0) slices_S128x4096_o0_0_S128x1024) (shapeCast S1024x1024 w shapeCasts_S1024x1024_S1024x1024) (constant S128x1024 .f32 0x00000000#32) (ix2 p q) = _
  rw [Ideal.matmul_constant_zero_apply, ← Equiv.sum_comp (contrEquiv1 dot_S128x1024_S1024x1024_S128x1024_1_0_0_1_n_n 1024 rfl rfl).symm, shapeCast_self]
  refine Finset.sum_congr rfl fun k _ => ?_
  have hk := contrEquiv1_symm_val dot_S128x1024_S1024x1024_S128x1024_1_0_0_1_n_n 1024 rfl rfl k
  generalize (contrEquiv1 dot_S128x1024_S1024x1024_S128x1024_1_0_0_1_n_n 1024 rfl rfl).symm k = κ at hk
  congr 1
  · exact lhs_k0_pay2 x0 p q k κ hk
  · exact congrArg w (funext fun a => Fin.ext (by
      match a with
      | ⟨0, _⟩ => exact (rhs_k0_pay2_0 _ _).trans hk
      | ⟨1, _⟩ => exact rhs_k0_pay2_1 _ _))

/-! ### The head over the first 2048 channels -/

theorem lhs_k0_pay3_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem lhs_k0_pay3_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem rhs_k0_pay3_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem rhs_k0_pay3_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- The cut to the first 2048 channels starts at zero, so it reads the block at the same coordinates. -/
theorem slice_k0_pay3 (x : S128x4096.Idx → EReal) (j : S128x2048.Idx) (p : Fin 128) (k : Fin 2048) (h0 : (j 0).val = p.val) (h1 : (j 1).val = k.val) :
    extractStridedSlice S128x2048 ![0, 0] x slices_S128x4096_o0_0_S128x2048 j = x (ix2 p ⟨k.val, by have := k.isLt; omega⟩) :=
  extractStridedSlice_apply ![0, 0] x slices_S128x4096_o0_0_S128x2048 j (ix2 p ⟨k.val, by have := k.isLt; omega⟩) (fun a => by
    match a with
    | ⟨0, _⟩ => show p.val = 0 + (j 0).val; omega
    | ⟨1, _⟩ => show k.val = 0 + (j 1).val; omega)

/-- The left factor of term `k` of entry `(p, q)`: the block of `x` at `(p, k)`. -/
theorem lhs_k0_pay3 (x0 : Vec Ideal S128x4096 .f32) (p : Fin 128) (q : Fin 1024) (k : Fin 2048) (κ : dot_S128x2048_S2048x1024_S128x1024_1_0_0_1_n_n.contr.Idx) (hk : (κ ⟨0, by decide⟩).val = k.val) :
    extractStridedSlice S128x2048 ![0, 0] (k0_pay1 (F := Ideal) x0) slices_S128x4096_o0_0_S128x2048 (dot_S128x2048_S2048x1024_S128x1024_1_0_0_1_n_n.lhsIdx (ix2 p q) κ) = x0 (ix2 p ⟨k.val, by have := k.isLt; omega⟩) := by
  rw [pay1_eq]
  exact slice_k0_pay3 x0 _ p k (lhs_k0_pay3_0 _ _) ((lhs_k0_pay3_1 _ _).trans hk)

/-- Entry `(p, q)` of the head's product: row `p` of the block of `x`, cut to 2048 channels, against column `q`
    of the transposed weights. The accumulator is zero, so the entry is the bare sum. -/
theorem k0_pay3_apply (x0 : Vec Ideal S128x4096 .f32) (w : Vec Ideal S2048x1024 .bf16) (p : Fin 128) (q : Fin 1024) :
    k0_pay3 (F := Ideal) x0 w (ix2 p q) = ∑ k : Fin 2048, x0 (ix2 p ⟨k.val, by have := k.isLt; omega⟩) * w (ix2 k q) := by
  unfold k0_pay3
  show FloatOps.matmul dot_S128x2048_S2048x1024_S128x1024_1_0_0_1_n_n none (extractStridedSlice S128x2048 ![0, 0] (k0_pay1 (F := Ideal) x0) slices_S128x4096_o0_0_S128x2048) (shapeCast S2048x1024 w shapeCasts_S2048x1024_S2048x1024) (constant S128x1024 .f32 0x00000000#32) (ix2 p q) = _
  rw [Ideal.matmul_constant_zero_apply, ← Equiv.sum_comp (contrEquiv1 dot_S128x2048_S2048x1024_S128x1024_1_0_0_1_n_n 2048 rfl rfl).symm, shapeCast_self]
  refine Finset.sum_congr rfl fun k _ => ?_
  have hk := contrEquiv1_symm_val dot_S128x2048_S2048x1024_S128x1024_1_0_0_1_n_n 2048 rfl rfl k
  generalize (contrEquiv1 dot_S128x2048_S2048x1024_S128x1024_1_0_0_1_n_n 2048 rfl rfl).symm k = κ at hk
  congr 1
  · exact lhs_k0_pay3 x0 p q k κ hk
  · exact congrArg w (funext fun a => Fin.ext (by
      match a with
      | ⟨0, _⟩ => exact (rhs_k0_pay3_0 _ _).trans hk
      | ⟨1, _⟩ => exact rhs_k0_pay3_1 _ _))

/-! ### The head over the first 4096 channels -/

theorem lhs_k0_pay4_0 (i : S128x2048.Idx) (q : dot_S128x4096_S4096x2048_S128x2048_1_0_0_1_n_n.contr.Idx) :
    (dot_S128x4096_S4096x2048_S128x2048_1_0_0_1_n_n.lhsIdx i q 0).val = (i 0).val := by
  unfold DotDims.lhsIdx
  rw [dif_neg (show ¬(0 : Fin S128x4096.rank) ∈ dot_S128x4096_S4096x2048_S128x2048_1_0_0_1_n_n.lhsBatch by decide), dif_pos (show (0 : Fin S128x4096.rank) ∈ dot_S128x4096_S4096x2048_S128x2048_1_0_0_1_n_n.lhsNonContracting by decide)]
  rfl
theorem lhs_k0_pay4_1 (i : S128x2048.Idx) (q : dot_S128x4096_S4096x2048_S128x2048_1_0_0_1_n_n.contr.Idx) :
    (dot_S128x4096_S4096x2048_S128x2048_1_0_0_1_n_n.lhsIdx i q 1).val = (q ⟨0, by decide⟩).val :=
  dot_S128x4096_S4096x2048_S128x2048_1_0_0_1_n_n.lhsIdx_val_of_single rfl i q
theorem rhs_k0_pay4_0 (i : S128x2048.Idx) (q : dot_S128x4096_S4096x2048_S128x2048_1_0_0_1_n_n.contr.Idx) :
    (dot_S128x4096_S4096x2048_S128x2048_1_0_0_1_n_n.rhsIdx i q 0).val = (q ⟨0, by decide⟩).val :=
  dot_S128x4096_S4096x2048_S128x2048_1_0_0_1_n_n.rhsIdx_val_of_single rfl i q
theorem rhs_k0_pay4_1 (i : S128x2048.Idx) (q : dot_S128x4096_S4096x2048_S128x2048_1_0_0_1_n_n.contr.Idx) :
    (dot_S128x4096_S4096x2048_S128x2048_1_0_0_1_n_n.rhsIdx i q 1).val = (i 1).val := by
  unfold DotDims.rhsIdx
  rw [dif_neg (show ¬(1 : Fin S4096x2048.rank) ∈ dot_S128x4096_S4096x2048_S128x2048_1_0_0_1_n_n.rhsBatch by decide), dif_pos (show (1 : Fin S4096x2048.rank) ∈ dot_S128x4096_S4096x2048_S128x2048_1_0_0_1_n_n.rhsNonContracting by decide)]
  rfl

/-- The left factor of term `k` of entry `(p, q)`: the block of `x` at `(p, k)`. -/
theorem lhs_k0_pay4 (x0 : Vec Ideal S128x4096 .f32) (p : Fin 128) (q : Fin 2048) (k : Fin 4096) (κ : dot_S128x4096_S4096x2048_S128x2048_1_0_0_1_n_n.contr.Idx) (hk : (κ ⟨0, by decide⟩).val = k.val) :
    k0_pay1 (F := Ideal) x0 (dot_S128x4096_S4096x2048_S128x2048_1_0_0_1_n_n.lhsIdx (ix2 p q) κ) = x0 (ix2 p k) := by
  rw [pay1_eq]
  exact congrArg x0 (funext fun a => Fin.ext (by
    match a with
    | ⟨0, _⟩ => exact lhs_k0_pay4_0 _ _
    | ⟨1, _⟩ => exact (lhs_k0_pay4_1 _ _).trans hk))

/-- Entry `(p, q)` of the head's product: row `p` of the block of `x`, cut to 4096 channels, against column `q`
    of the transposed weights. The accumulator is zero, so the entry is the bare sum. -/
theorem k0_pay4_apply (x0 : Vec Ideal S128x4096 .f32) (w : Vec Ideal S4096x2048 .bf16) (p : Fin 128) (q : Fin 2048) :
    k0_pay4 (F := Ideal) x0 w (ix2 p q) = ∑ k : Fin 4096, x0 (ix2 p k) * w (ix2 k q) := by
  unfold k0_pay4
  show FloatOps.matmul dot_S128x4096_S4096x2048_S128x2048_1_0_0_1_n_n none (k0_pay1 (F := Ideal) x0) (shapeCast S4096x2048 w shapeCasts_S4096x2048_S4096x2048) (constant S128x2048 .f32 0x00000000#32) (ix2 p q) = _
  rw [Ideal.matmul_constant_zero_apply, ← Equiv.sum_comp (contrEquiv1 dot_S128x4096_S4096x2048_S128x2048_1_0_0_1_n_n 4096 rfl rfl).symm, shapeCast_self]
  refine Finset.sum_congr rfl fun k _ => ?_
  have hk := contrEquiv1_symm_val dot_S128x4096_S4096x2048_S128x2048_1_0_0_1_n_n 4096 rfl rfl k
  generalize (contrEquiv1 dot_S128x4096_S4096x2048_S128x2048_1_0_0_1_n_n 4096 rfl rfl).symm k = κ at hk
  congr 1
  · exact lhs_k0_pay4 x0 p q k κ hk
  · exact congrArg w (funext fun a => Fin.ext (by
      match a with
      | ⟨0, _⟩ => exact (rhs_k0_pay4_0 _ _).trans hk
      | ⟨1, _⟩ => exact rhs_k0_pay4_1 _ _))

end Cert.KernelIdeal.Payload

end
-- ==== Proof.BlockValue.lean ====
/-
  What the kernel body leaves in the output block. It stores three products side by side: columns 0–1023 the
  1024-channel head, columns 1024–2047 the 2048-channel head, columns 2048–4095 the full head. Each stored
  piece agrees, at every index under it, with one function of the block index — `Cert.Matryoshka.blockFn` of the
  four input blocks — and the three pieces cover the block, so the block IS that function.
-/
import proofs.«125300_j59820304498925_2_alg».proof.Proof.Gen.KernelIdeal.Frame
import proofs.«125300_j59820304498925_2_alg».proof.Proof.Payload
import proofs.«125300_j59820304498925_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.BlockValue

open Cert.KernelIdeal Cert.KernelIdeal.Gen Cert.KernelIdeal.Payload Idealize.ShloMosaic Idealize.ShloMosaic.TcCoe Idealize.SL.Sem
open Idealize.ShloMosaic.ValueIdx Cert.Matryoshka
open scoped BigOperators

theorem hz : (![0, 0] : Fin 2 → Nat) = fun _ => 0 := funext fun a => by fin_cases a <;> rfl

/-- The output block after the body, as one function of the input blocks. -/
theorem out_eq (c : Dev nD) (i : grid0.Coords) (a1 : Memref sig .tc .vmem S128x4096 .f32) (h1 : a1.IsWhole)
    (a2 : Memref sig .tc .vmem S1024x1024 .bf16) (h2 : a2.IsWhole) (a3 : Memref sig .tc .vmem S2048x1024 .bf16) (h3 : a3.IsWhole)
    (a4 : Memref sig .tc .vmem S4096x2048 .bf16) (h4 : a4.IsWhole) (a5 : Memref sig .tc .vmem S128x4096 .f32) (h5 : a5.IsWhole)
    (x0 : Vec Ideal S128x4096 .f32) (x1 : Vec Ideal S1024x1024 .bf16) (x2 : Vec Ideal S2048x1024 .bf16) (x3 : Vec Ideal S4096x2048 .bf16) :
    out0_A_4 (F := Ideal) c i a1 h1 a2 h2 a3 h3 a4 h4 a5 h5 x0 x1 x2 x3 = blockFn x0 x1 x2 x3 := by
  unfold out0_A_4
  rw [View.read_writes_eq_canon _ _ _ (cover0_A_4 c i a1 h1 a2 h2 a3 h3 a4 h4 a5 h5 x0 x1 x2 x3)]
  funext y
  refine View.canon_apply_of_pieces (blockFn x0 x1 x2 x3) _ ?_ y (cover0_A_4 c i a1 h1 a2 h2 a3 h3 a4 h4 a5 h5 x0 x1 x2 x3 y)
  unfold kernelRun0_A
  dsimp only
  sl_unfold_words
  simp only [View.readAt_eq_ld, h1.read_unread, h2.read_unread, h3.read_unread, h4.read_unread,
    View.ld_unit_zero (S := S128x4096) hz, View.ld_unit_zero (S := S1024x1024) hz,
    View.ld_unit_zero (S := S2048x1024) hz, View.ld_unit_zero (S := S4096x2048) hz]
  intro pc hpc x
  simp only [List.mem_cons, List.mem_nil_iff, or_false] at hpc
  rcases hpc with rfl | rfl | rfl
  · -- columns 2048–4095: the full head
    obtain ⟨p, q, rfl⟩ : ∃ (p : Fin 128) (q : Fin 2048), x = ix2 p q := ⟨x 0, x 1, eq_ix2 x⟩
    refine (k0_pay4_apply x0 x3 p q).trans ?_
    exact (blockAt_head2 x0 x1 x2 x3 _ _ p q (by show 0 + 1 * p.val = p.val; omega) (by show 2048 + 1 * q.val = 2048 + q.val; omega)).symm
  · -- columns 1024–2047: the 2048-channel head
    obtain ⟨p, q, rfl⟩ : ∃ (p : Fin 128) (q : Fin 1024), x = ix2 p q := ⟨x 0, x 1, eq_ix2 x⟩
    refine (k0_pay3_apply x0 x2 p q).trans ?_
    exact (blockAt_head1 x0 x1 x2 x3 _ _ p q (by show 0 + 1 * p.val = p.val; omega) (by show 1024 + 1 * q.val = 1024 + q.val; omega)).symm
  · -- columns 0–1023: the 1024-channel head
    obtain ⟨p, q, rfl⟩ : ∃ (p : Fin 128) (q : Fin 1024), x = ix2 p q := ⟨x 0, x 1, eq_ix2 x⟩
    refine (k0_pay2_apply x0 x1 p q).trans ?_
    exact (blockAt_head0 x0 x1 x2 x3 _ _ p q (by show 0 + 1 * p.val = p.val; omega) (by show 0 + 1 * q.val = q.val; omega)).symm

end Cert.KernelIdeal.BlockValue

end
-- ==== Proof.ArrayValue.lean ====
/-
  From blocks to the array, and on to the kernel's result. Grid point `t` writes back rows `128 t … 128 t + 127` of
  the [16384, 4096] output: the body's block at `t`, which is `blockFn` of the point's 128 rows of the flattened `x`
  and of the three transposed weight matrices (each staged whole at every point). The flattened `x` is `x` with its
  two leading axes merged, the transposed weights are the weights with their two indices exchanged, so that block is
  rows `128 t …` of `resultRows` of the arguments; the 128 blocks tile the rows, so the whole array is `resultRows`,
  and the reshape after the region splits the row axis back: the result is `result` of the arguments.
-/
import proofs.«125300_j59820304498925_2_alg».proof.Proof.Gen.KernelIdeal.Frame
import proofs.«125300_j59820304498925_2_alg».proof.Proof.BlockValue
import proofs.«125300_j59820304498925_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.Pipeline (Dat)
open Idealize.ShloMosaic.ValueIdx Cert.Matryoshka
open scoped BigOperators

variable (m : (ℓ : Loc nD τ sig) → Buf (Elt Ideal) ℓ) (ρ : Dev nD → PrngReg)

/-! ## What the region finds in the windows' arrays -/

/-- The flattened `x`: row `r` of the [16384, 4096] array is position `(r / 4096, r % 4096)` of `x`. -/
theorem V_rows (c : Dev nD) (r : Fin 16384) (k : Fin 4096) :
    V m c main_v6 (ix2 r k) = (m ((c : Thread nD τ).loc main_arg0)) (ix3 ⟨r.val / 4096, by have := r.isLt; omega⟩ ⟨r.val % 4096, Nat.mod_lt _ (by norm_num)⟩ k) := by
  have e : (V m c main_v6 : S16384x4096.Idx → EReal) = shapeCast S16384x4096 (m ((c : Thread nD τ).loc main_arg0)) shapeCasts_S4x4096x4096_S16384x4096 := by
    show StableHlo.after hostOps0 (fun b => m (c, b)) (Proc.devRef .tc main_v6) = _
    after_results
    rfl
  rw [e]
  refine shapeCast_apply _ _ _ _ ?_
  show ((⟨3, ![4, 4096, 4096]⟩ : Shape).rowMajor (ix3 ⟨r.val / 4096, by have := r.isLt; omega⟩ ⟨r.val % 4096, Nat.mod_lt _ (by norm_num)⟩ k)).val
    = ((⟨2, ![16384, 4096]⟩ : Shape).rowMajor (ix2 r k)).val
  rw [Shape.rowMajor_val_three, Shape.rowMajor_val_two]
  show (r.val / 4096 * 4096 + r.val % 4096) * 4096 + k.val = r.val * 4096 + k.val
  have := Nat.div_add_mod r.val 4096
  omega

/-- The transposed 1024-channel weights. -/
theorem V_w0 (c : Dev nD) (k : Fin 1024) (q : Fin 1024) : V m c main_v1 (ix2 k q) = (m ((c : Thread nD τ).loc main_arg1)) (ix2 q k) := by
  have e : V m c main_v1 = (truncf (F := Ideal) .bf16 (transpose S1024x1024 [1, 0] (m ((c : Thread nD τ).loc main_arg1)) transposes_S1024x1024_S1024x1024_1_0) bitsLt_bf16_f32 : FVec Ideal S1024x1024 .bf16) := by
    show StableHlo.after hostOps0 (fun b => m (c, b)) (Proc.devRef .tc main_v1) = _
    after_results
  rw [e]
  show transpose S1024x1024 [1, 0] (m ((c : Thread nD τ).loc main_arg1)) transposes_S1024x1024_S1024x1024_1_0 (ix2 k q) = _
  exact transpose_apply [1, 0] _ _ (ix2 k q) (ix2 q k) (fun b => by
    match b with
    | ⟨0, _⟩ => rfl
    | ⟨1, _⟩ => rfl)

/-- The transposed 2048-channel weights. -/
theorem V_w1 (c : Dev nD) (k : Fin 2048) (q : Fin 1024) : V m c main_v3 (ix2 k q) = (m ((c : Thread nD τ).loc main_arg2)) (ix2 q k) := by
  have e : V m c main_v3 = (truncf (F := Ideal) .bf16 (transpose S2048x1024 [1, 0] (m ((c : Thread nD τ).loc main_arg2)) transposes_S1024x2048_S2048x1024_1_0) bitsLt_bf16_f32 : FVec Ideal S2048x1024 .bf16) := by
    show StableHlo.after hostOps0 (fun b => m (c, b)) (Proc.devRef .tc main_v3) = _
    after_results
  rw [e]
  show transpose S2048x1024 [1, 0] (m ((c : Thread nD τ).loc main_arg2)) transposes_S1024x2048_S2048x1024_1_0 (ix2 k q) = _
  exact transpose_apply [1, 0] _ _ (ix2 k q) (ix2 q k) (fun b => by
    match b with
    | ⟨0, _⟩ => rfl
    | ⟨1, _⟩ => rfl)

/-- The transposed full-width weights. -/
theorem V_w2 (c : Dev nD) (k : Fin 4096) (q : Fin 2048) : V m c main_v5 (ix2 k q) = (m ((c : Thread nD τ).loc main_arg3)) (ix2 q k) := by
  have e : V m c main_v5 = (truncf (F := Ideal) .bf16 (transpose S4096x2048 [1, 0] (m ((c : Thread nD τ).loc main_arg3)) transposes_S2048x4096_S4096x2048_1_0) bitsLt_bf16_f32 : FVec Ideal S4096x2048 .bf16) := by
    show StableHlo.after hostOps0 (fun b => m (c, b)) (Proc.devRef .tc main_v5) = _
    after_results
  rw [e]
  show transpose S4096x2048 [1, 0] (m ((c : Thread nD τ).loc main_arg3)) transposes_S2048x4096_S4096x2048_1_0 (ix2 k q) = _
  exact transpose_apply [1, 0] _ _ (ix2 k q) (ix2 q k) (fun b => by
    match b with
    | ⟨0, _⟩ => rfl
    | ⟨1, _⟩ => rfl)

/-! ## The windows' blocks on the grid -/

/-- The printed index maps over the 128 grid points: the rows of `x` move with the output's rows, the weights'
    blocks never move, and the output's block index on the channel axis is zero. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 127 ∧ win0_4.index t (1 : Fin 2) = 0 :=
  (by decide +kernel : ∀ t : Fin grid0.N, _)

/-- Every block of rows is some point's. -/
theorem idx_onto : ∀ q0 : Fin 128, ∃ t : Fin cfg0.N, win0_4.index t = ![q0.val, 0] :=
  (by decide +kernel : ∀ q0 : Fin 128, ∃ t : Fin grid0.N, win0_4.index t = ![q0.val, 0])

/-- What point `t` writes back is block `t` of `resultRows` of the arguments. -/
theorem flushed_eq (c : Dev nD) (t : Fin cfg0.N) :
    (dats m 0 c).flushed 4 t = ((cfg0.win 4).blk t).view.read (Elt Ideal) (resultRows (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold outsAt0
  rw [out_eq c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)]
  obtain ⟨e00, e01, e10, e11, e20, e21, e30, e31, e4le, e41⟩ := idx_facts t
  funext y
  have hy0 : (y 0).val < 128 := (y 0).isLt
  have hy1 : (y 1).val < 4096 := (y 1).isLt
  show blockAt (iblk m c 0 t) (iblk m c 1 t) (iblk m c 2 t) (iblk m c 3 t) (y 0) (y 1)
    = entry (m ((c : Thread nD τ).loc main_arg0)) (m ((c : Thread nD τ).loc main_arg1)) (m ((c : Thread nD τ).loc main_arg2)) (m ((c : Thread nD τ).loc main_arg3)) ⟨((((cfg0.win 4).blk t).view.emb y) 0).val / 4096, _⟩ ⟨((((cfg0.win 4).blk t).view.emb y) 0).val % 4096, _⟩ ((((cfg0.win 4).blk t).view.emb y) 1)
  refine blockAt_eq_entry (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3))
    (win0_4.index t (0 : Fin 2)) (by omega) ?_ ?_ ?_ ?_ (y 0) (y 1) _ _ _ ?_ ?_ ?_
  · intro p k
    show V m c main_v6 (((cfg0.win 0).blk t).view.emb (ix2 p k)) = _
    have e : ((cfg0.win 0).blk t).view.emb (ix2 p k) = ix2 ⟨win0_4.index t (0 : Fin 2) * 128 + p.val, by have := p.isLt; omega⟩ k := by
      funext a; apply Fin.ext
      match a with
      | ⟨0, _⟩ => show win0_0.index t (0 : Fin 2) * 128 + 1 * p.val = win0_4.index t (0 : Fin 2) * 128 + p.val; omega
      | ⟨1, _⟩ => show win0_0.index t (1 : Fin 2) * 4096 + 1 * k.val = k.val; omega
    rw [e, V_rows]
  · intro k q
    show V m c main_v1 (((cfg0.win 1).blk t).view.emb (ix2 k q)) = _
    have e : ((cfg0.win 1).blk t).view.emb (ix2 k q) = ix2 k q := by
      funext a; apply Fin.ext
      match a with
      | ⟨0, _⟩ => show win0_1.index t (0 : Fin 2) * 1024 + 1 * k.val = k.val; omega
      | ⟨1, _⟩ => show win0_1.index t (1 : Fin 2) * 1024 + 1 * q.val = q.val; omega
    rw [e, V_w0]
  · intro k q
    show V m c main_v3 (((cfg0.win 2).blk t).view.emb (ix2 k q)) = _
    have e : ((cfg0.win 2).blk t).view.emb (ix2 k q) = ix2 k q := by
      funext a; apply Fin.ext
      match a with
      | ⟨0, _⟩ => show win0_2.index t (0 : Fin 2) * 2048 + 1 * k.val = k.val; omega
      | ⟨1, _⟩ => show win0_2.index t (1 : Fin 2) * 1024 + 1 * q.val = q.val; omega
    rw [e, V_w1]
  · intro k q
    show V m c main_v5 (((cfg0.win 3).blk t).view.emb (ix2 k q)) = _
    have e : ((cfg0.win 3).blk t).view.emb (ix2 k q) = ix2 k q := by
      funext a; apply Fin.ext
      match a with
      | ⟨0, _⟩ => show win0_3.index t (0 : Fin 2) * 4096 + 1 * k.val = k.val; omega
      | ⟨1, _⟩ => show win0_3.index t (1 : Fin 2) * 2048 + 1 * q.val = q.val; omega
    rw [e, V_w2]
  · show (win0_4.index t (0 : Fin 2) * 128 + 1 * (y 0).val) / 4096 = (win0_4.index t (0 : Fin 2) * 128 + (y 0).val) / 4096
    rw [Nat.one_mul]
  · show (win0_4.index t (0 : Fin 2) * 128 + 1 * (y 0).val) % 4096 = (win0_4.index t (0 : Fin 2) * 128 + (y 0).val) % 4096
    rw [Nat.one_mul]
  · show win0_4.index t (1 : Fin 2) * 4096 + 1 * (y 1).val = (y 1).val
    omega

/-- An index of the output array is in point `t`'s block iff each coordinate is in the block's range. -/
theorem mem_blk (t : Fin cfg0.N) (i : S16384x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v7).slice (win0_4.rect t)).set ↔ _
  rw [View.set_slice_whole, Rect.mem_set_unit]
  exact Iff.rfl

/-- The blocks tile the rows: row `r` is in the block of the point whose row-block index is `r / 128`. -/
theorem cover (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 4096 ≤ (i 1).val ∧ (i 1).val < win0_4.index t (1 : Fin 2) * 4096 + 4096; omega

/-- The output array after the region. -/
theorem final (c : Dev nD) : (dats m 0 c).arrAt 4 cfg0.N = resultRows (m ((c : Thread nD τ).loc main_arg0)) (m ((c : Thread nD τ).loc main_arg1)) (m ((c : Thread nD τ).loc main_arg2)) (m ((c : Thread nD τ).loc main_arg3)) :=
  (dats m 0 c).arrAt_eq_of_cover 4 (resultRows (m ((c : Thread nD τ).loc main_arg0)) (m ((c : Thread nD τ).loc main_arg1)) (m ((c : Thread nD τ).loc main_arg2)) (m ((c : Thread nD τ).loc main_arg3))) (fun t _ => flushed_eq m c t) cover

/-! ## The reshape after the region, and the run -/

/-- The kernel's result: the output array with its row axis split back into batch and sequence. -/
theorem tail_eq (c : Dev nD) :
    Pipeline.afterTail₀ cfgs (dats m) 0 (V0 m) [hostOps1] c main_v8 = result (m ((c : Thread nD τ).loc main_arg0)) (m ((c : Thread nD τ).loc main_arg1)) (m ((c : Thread nD τ).loc main_arg2)) (m ((c : Thread nD τ).loc main_arg3)) := by
  have hW : Pipeline.withArrays (cfgs 0).spec c (V0 m c) (fun w => (dats m 0 c).arrAt w (cfgs 0).N) (Proc.devRef .tc main_v7)
      = resultRows (m ((c : Thread nD τ).loc main_arg0)) (m ((c : Thread nD τ).loc main_arg1)) (m ((c : Thread nD τ).loc main_arg2)) (m ((c : Thread nD τ).loc main_arg3)) :=
    (Pipeline.withArrays_arr spec0 launch0.win.arr_inj c _ _ 4).trans (final m c)
  unfold Pipeline.afterTail₀
  show StableHlo.after hostOps1 _ (Proc.devRef .tc main_v8) = _
  after_results
  funext i
  show shapeCast S4x4096x4096 (Pipeline.withArrays (cfgs 0).spec c (V0 m c) (fun w => (dats m 0 c).arrAt w (cfgs 0).N) (Proc.devRef .tc main_v7))
    shapeCasts_S16384x4096_S4x4096x4096 i = _
  rw [hW]
  have hi1 : (i 1).val < 4096 := (i 1).isLt
  have hi0 : (i 0).val < 4 := (i 0).isLt
  refine (shapeCast_apply _ _ i (ix2 ⟨(i 0).val * 4096 + (i 1).val, by omega⟩ (i 2)) ?_).trans
    (resultRows_eq_result _ _ _ _ i _ rfl rfl)
  show ((⟨2, ![16384, 4096]⟩ : Shape).rowMajor (ix2 ⟨(i 0).val * 4096 + (i 1).val, by omega⟩ (i 2))).val
    = ((⟨3, ![4, 4096, 4096]⟩ : Shape).rowMajor i).val
  rw [Shape.rowMajor_val_two, Shape.rowMajor_val_three]
  rfl

/-- The kernel's run, read: every weakly fair execution terminates with the result array at `result` of the
    arguments and the arguments unchanged. -/
theorem run : θ_run defs (onTc (τ := τ) (main (F := Ideal))) ⟨m, fun _ => 0, ρ⟩ fun r => ∀ c : Dev nD,
      r.2.mem ((c.tc : Thread nD τ).loc main_v8) = result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.ArrayValue

end
-- ==== Proof.RefValue.lean ====
/-
  The reference, read index by index. It slices the first 1024 and 2048 channels of `x`, contracts each cut (and
  all of `x`) with its weight matrix over the channel axis, and concatenates the three products along the last
  axis. An index `(b, s, c)` of the concatenation falls in the piece whose channel range holds `c`, at channel
  `c` less the extents of the pieces before it; there the product is the sum over the contracted channel, and a
  slice that starts at zero reads `x` at the same index. That is `Cert.Matryoshka.result`.
-/
import proofs.«125300_j59820304498925_2_alg».proof.Defs
import proofs.«125300_j59820304498925_2_alg».proof.Proof.Gen.ReferenceIdeal.Run
import proofs.«125300_j59820304498925_2_alg».proof.Proof.Gen.ReferenceIdeal.Read
import proofs.«125300_j59820304498925_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Matryoshka
open scoped BigOperators

/-- The reference's result is the specification, entry by entry. -/
theorem val_eq_result (x : (⟨S4x4096x4096, .f32⟩ : BufTy).Contents (Elt Ideal)) (W0 : (⟨S1024x1024, .f32⟩ : BufTy).Contents (Elt Ideal))
    (W1 : (⟨S1024x2048, .f32⟩ : BufTy).Contents (Elt Ideal)) (W2 : (⟨S2048x4096, .f32⟩ : BufTy).Contents (Elt Ideal)) :
    val_main_v5 (F := Ideal) x W0 W1 W2 = result x W0 W1 W2 := by
  funext i
  have hi2 : (i 2).val < 4096 := (i 2).isLt
  unfold val_main_v5 result entry
  by_cases h0 : (i 2).val < 1024
  · rw [dif_pos h0]
    rw [concatenate_apply_piece (2 : Fin S4x4096x4096.rank) ([⟨S4x4096x1024, val_main_v1 (F := Ideal) x W0⟩, ⟨S4x4096x1024, val_main_v3 (F := Ideal) x W1⟩, ⟨S4x4096x2048, val_main_v4 (F := Ideal) x W2⟩] : List ((s : Shape) × (s.Idx → Elt Ideal .f32))) concatenates_S4x4096x1024_S4x4096x1024_S4x4096x2048_S4x4096x4096_d2 i
      0 (by show 0 < 3; omega) S4x4096x1024 (val_main_v1 (F := Ideal) x W0) rfl rfl 0 rfl (ix3 (i 0) (i 1) ⟨(i 2).val, h0⟩)
      (fun b hb => by
        match b with
        | ⟨0, _⟩ => rfl
        | ⟨1, _⟩ => rfl
        | ⟨2, _⟩ => exact absurd rfl hb)
      (by show 0 + (i 2).val = (i 2).val; omega)]
    rw [val_main_v1_apply]
    unfold headAt
    refine Finset.sum_congr rfl fun k _ => ?_
    rw [val_main_v0_apply]
    congr 1
    · exact congrArg x (funext fun a => Fin.ext (by
        match a with
        | ⟨0, _⟩ => rfl
        | ⟨1, _⟩ => rfl
        | ⟨2, _⟩ => rfl))
    · exact congrArg W0 (funext fun a => Fin.ext (by
        match a with
        | ⟨0, _⟩ => rfl
        | ⟨1, _⟩ => rfl))
  · rw [dif_neg h0]
    by_cases h1 : (i 2).val < 2048
    · rw [dif_pos h1]
      rw [concatenate_apply_piece (2 : Fin S4x4096x4096.rank) ([⟨S4x4096x1024, val_main_v1 (F := Ideal) x W0⟩, ⟨S4x4096x1024, val_main_v3 (F := Ideal) x W1⟩, ⟨S4x4096x2048, val_main_v4 (F := Ideal) x W2⟩] : List ((s : Shape) × (s.Idx → Elt Ideal .f32))) concatenates_S4x4096x1024_S4x4096x1024_S4x4096x2048_S4x4096x4096_d2 i
        1 (by show 1 < 3; omega) S4x4096x1024 (val_main_v3 (F := Ideal) x W1) rfl rfl 1024 rfl (ix3 (i 0) (i 1) ⟨(i 2).val - 1024, by omega⟩)
        (fun b hb => by
          match b with
          | ⟨0, _⟩ => rfl
          | ⟨1, _⟩ => rfl
          | ⟨2, _⟩ => exact absurd rfl hb)
        (by show 1024 + ((i 2).val - 1024) = (i 2).val; omega)]
      rw [val_main_v3_apply]
      unfold headAt
      refine Finset.sum_congr rfl fun k _ => ?_
      rw [val_main_v2_apply]
      congr 1
      · exact congrArg x (funext fun a => Fin.ext (by
          match a with
          | ⟨0, _⟩ => rfl
          | ⟨1, _⟩ => rfl
          | ⟨2, _⟩ => rfl))
      · exact congrArg W1 (funext fun a => Fin.ext (by
          match a with
          | ⟨0, _⟩ => rfl
          | ⟨1, _⟩ => rfl))
    · rw [dif_neg h1]
      rw [concatenate_apply_piece (2 : Fin S4x4096x4096.rank) ([⟨S4x4096x1024, val_main_v1 (F := Ideal) x W0⟩, ⟨S4x4096x1024, val_main_v3 (F := Ideal) x W1⟩, ⟨S4x4096x2048, val_main_v4 (F := Ideal) x W2⟩] : List ((s : Shape) × (s.Idx → Elt Ideal .f32))) concatenates_S4x4096x1024_S4x4096x1024_S4x4096x2048_S4x4096x4096_d2 i
        2 (by show 2 < 3; omega) S4x4096x2048 (val_main_v4 (F := Ideal) x W2) rfl rfl 2048 rfl (ix3 (i 0) (i 1) ⟨(i 2).val - 2048, by omega⟩)
        (fun b hb => by
          match b with
          | ⟨0, _⟩ => rfl
          | ⟨1, _⟩ => rfl
          | ⟨2, _⟩ => exact absurd rfl hb)
        (by show 2048 + ((i 2).val - 2048) = (i 2).val; omega)]
      rw [val_main_v4_apply]
      unfold headAt
      refine Finset.sum_congr rfl fun k _ => ?_
      congr 1
      · exact congrArg x (funext fun a => Fin.ext (by
          match a with
          | ⟨0, _⟩ => rfl
          | ⟨1, _⟩ => rfl
          | ⟨2, _⟩ => rfl))
      · exact congrArg W2 (funext fun a => Fin.ext (by
          match a with
          | ⟨0, _⟩ => rfl
          | ⟨1, _⟩ => rfl))

end Cert.ReferenceIdeal.RefValue

end
-- ==== Proof.lean ====
/-
  Three block-triangular linear heads side by side. For `x : [4, 4096, 4096]` and weights `W0 : [1024, 1024]`,
  `W1 : [1024, 2048]`, `W2 : [2048, 4096]`, entry `(b, s, c)` of the result is

      ∑ k < 1024, x[b, s, k] · W0[c, k]            for c < 1024,
      ∑ k < 2048, x[b, s, k] · W1[c - 1024, k]     for 1024 ≤ c < 2048,
      ∑ k < 4096, x[b, s, k] · W2[c - 2048, k]     for 2048 ≤ c

  (`Cert.Matryoshka.result`). The reference computes it as three contractions of channel prefixes of `x` and a
  concatenation. The kernel merges batch and sequence into 16384 rows, transposes the weights, and per block of 128
  rows multiplies the block's channel prefixes with the transposed weights, storing the three products side by side;
  a reshape splits the rows back. Over the extended reals a change of float format is the identity and each product
  into a zero accumulator is the bare sum, so both sides are the same finite sums of the same products, term by
  term: no reordering of a sum and no law that needs finite inputs is used.
-/
import proofs.«125300_j59820304498925_2_alg».proof.Defs
import proofs.«125300_j59820304498925_2_alg».proof.Proof.Gen.Kernel
import proofs.«125300_j59820304498925_2_alg».proof.Proof.Gen.Kernel.Skeleton
import proofs.«125300_j59820304498925_2_alg».proof.Proof.Gen.Kernel.Launch
import proofs.«125300_j59820304498925_2_alg».proof.Proof.Gen.Kernel.Points
import proofs.«125300_j59820304498925_2_alg».proof.Proof.Gen.Kernel.Frame
import proofs.«125300_j59820304498925_2_alg».proof.Proof.Gen.KernelIdeal
import proofs.«125300_j59820304498925_2_alg».proof.Proof.Gen.KernelIdeal.Skeleton
import proofs.«125300_j59820304498925_2_alg».proof.Proof.Gen.KernelIdeal.Launch
import proofs.«125300_j59820304498925_2_alg».proof.Proof.Gen.KernelIdeal.Points
import proofs.«125300_j59820304498925_2_alg».proof.Proof.Gen.KernelIdeal.Frame
import proofs.«125300_j59820304498925_2_alg».proof.Proof.Gen.ReferenceIdeal
import proofs.«125300_j59820304498925_2_alg».proof.Proof.Gen.ReferenceIdeal.Run
import proofs.«125300_j59820304498925_2_alg».proof.Proof.Gen.ReferenceIdeal.Read
import proofs.«125300_j59820304498925_2_alg».proof.Proof.Gen.Pre_finite_inputs
import proofs.«125300_j59820304498925_2_alg».proof.Proof.Spec
import proofs.«125300_j59820304498925_2_alg».proof.Proof.Payload
import proofs.«125300_j59820304498925_2_alg».proof.Proof.BlockValue
import proofs.«125300_j59820304498925_2_alg».proof.Proof.ArrayValue
import proofs.«125300_j59820304498925_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten to read it over the extended reals. -/
theorem preserves : Cert.preserves_Kernel_KernelIdeal := trivial

/-- Both programs end with their result array at `result` of the arguments: the kernel's by its blocks
    (`ArrayValue.run`), the reference's by reading its operations at an index (`RefValue.val_eq_result`), from
    arguments that agree. -/
theorem algebraic : Cert.algebraic_KernelIdeal_ReferenceIdeal := by
  intro m ρ m' ρ' _ hagree
  refine ⟨fun c => Cert.Matryoshka.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.val_eq_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
